-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096x64 : Shape := ⟨4, ![1, 16, 4096, 64]⟩
abbrev S_ : Shape := ⟨0, ![]⟩

class Facts : Prop where
  bcast_S_S1x16x4096x64 : S_.BroadcastsInDim S1x16x4096x64 (![] : Fin 0 → Fin S1x16x4096x64.rank)
  reducesTo_S1x16x4096x64_S_d0_1_2_3 : S1x16x4096x64.ReducesTo [0, 1, 2, 3] S_
  h_S_ : 0 < S_.numel

variable [Facts]

def fn {F : FTy → Type} [FloatOps F] (main_arg0 : FVec F S1x16x4096x64 .f32) (main_arg1 : FVec F S1x16x4096x64 .f32) (main_arg2 : FVec F S1x16x4096x64 .f32) : IVec S_ 1 :=
  let main_v0 : FVec F S1x16x4096x64 .f32 := Host.absf main_arg0
  let main_cst : FVec F S_ .f32 := constant S_ .f32 0x7F800000#32
  let main_v1 : FVec F S1x16x4096x64 .f32 := broadcastInDim S1x16x4096x64 ![] bcast_S_S1x16x4096x64 main_cst
  let main_v2 : IVec S1x16x4096x64 1 := cmpf .olt main_v0 main_v1
  let main_c : IVec S_ 1 := constantI S_ 1 1#1
  let main_v3 : IVec S_ 1 := (fun x v => Host.reduce IntOp.andi x v reducesTo_S1x16x4096x64_S_d0_1_2_3 h_S_) main_v2 main_c
  let main_v4 : FVec F S1x16x4096x64 .f32 := Host.absf main_arg1
  let main_cst_0 : FVec F S_ .f32 := constant S_ .f32 0x7F800000#32
  let main_v5 : FVec F S1x16x4096x64 .f32 := broadcastInDim S1x16x4096x64 ![] bcast_S_S1x16x4096x64 main_cst_0
  let main_v6 : IVec S1x16x4096x64 1 := cmpf .olt main_v4 main_v5
  let main_c_1 : IVec S_ 1 := constantI S_ 1 1#1
  let main_v7 : IVec S_ 1 := (fun x v => Host.reduce IntOp.andi x v reducesTo_S1x16x4096x64_S_d0_1_2_3 h_S_) main_v6 main_c_1
  let main_v8 : IVec S_ 1 := andi main_v3 main_v7
  let main_v9 : FVec F S1x16x4096x64 .f32 := Host.absf main_arg2
  let main_cst_2 : FVec F S_ .f32 := constant S_ .f32 0x7F800000#32
  let main_v10 : FVec F S1x16x4096x64 .f32 := broadcastInDim S1x16x4096x64 ![] bcast_S_S1x16x4096x64 main_cst_2
  let main_v11 : IVec S1x16x4096x64 1 := cmpf .olt main_v9 main_v10
  let main_c_3 : IVec S_ 1 := constantI S_ 1 1#1
  let main_v12 : IVec S_ 1 := (fun x v => Host.reduce IntOp.andi x v reducesTo_S1x16x4096x64_S_d0_1_2_3 h_S_) main_v11 main_c_3
  let main_v13 : IVec S_ 1 := andi main_v8 main_v12
  main_v13
-- ==== Kernel.lean ====
abbrev S1x16x4096x64 : Shape := ⟨4, ![1, 16, 4096, 64]⟩
abbrev S16x4096x64 : Shape := ⟨3, ![16, 4096, 64]⟩
abbrev S16x2048x128 : Shape := ⟨3, ![16, 2048, 128]⟩
abbrev S1x2048x128 : Shape := ⟨3, ![1, 2048, 128]⟩
abbrev S2048x128 : Shape := ⟨2, ![2048, 128]⟩
abbrev S128x128 : Shape := ⟨2, ![128, 128]⟩
abbrev S64x64 : Shape := ⟨2, ![64, 64]⟩
abbrev S64x128 : Shape := ⟨2, ![64, 128]⟩

abbrev nBuf : Space → Nat
  | .hbm => 12
  | .vmem => 8
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S16x4096x64, .f32⟩
  | .hbm, ⟨4, _⟩ => ⟨S16x2048x128, .f32⟩
  | .hbm, ⟨5, _⟩ => ⟨S16x4096x64, .f32⟩
  | .hbm, ⟨6, _⟩ => ⟨S16x2048x128, .f32⟩
  | .hbm, ⟨7, _⟩ => ⟨S16x4096x64, .f32⟩
  | .hbm, ⟨8, _⟩ => ⟨S16x2048x128, .f32⟩
  | .hbm, ⟨9, _⟩ => ⟨S16x2048x128, .f32⟩
  | .hbm, ⟨10, _⟩ => ⟨S16x4096x64, .f32⟩
  | .hbm, ⟨11, _⟩ => ⟨S1x16x4096x64, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x16x4096x64_S16x4096x64 : S1x16x4096x64.ShapeCasts S16x4096x64
  shapeCasts_S16x4096x64_S16x2048x128 : S16x4096x64.ShapeCasts S16x2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S128x128_o0_0_S64x64 : S128x128.Slices ![0, 0] S64x64
  slices_S128x128_o64_64_S64x64 : S128x128.Slices ![64, 64] S64x64
  concatenates_S64x64_S64x64_S64x128_d1 : Shape.Concatenates [S64x64, S64x64] S64x128 1
  concatenates_S64x128_S64x128_S128x128_d0 : Shape.Concatenates [S64x128, S64x128] S128x128 0
  shapeCasts_S2048x128_S1x2048x128 : S2048x128.ShapeCasts S1x2048x128
  shapeCasts_S16x2048x128_S16x4096x64 : S16x2048x128.ShapeCasts S16x4096x64
  shapeCasts_S16x4096x64_S1x16x4096x64 : S16x4096x64.ShapeCasts S1x16x4096x64
  dot_S2048x128_S2048x128_S128x128_0_0_1_1_n_n_wf : DotDims.WF S2048x128 S2048x128 S128x128 [0] [0] [1] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x128.size a
  hwx0_3 : ∀ i : grid0.Coords, EltTy.bits .f32 = 32 ∨ (Rect.block (s := S16x2048x128) S1x2048x128.size (cc0_transform_3 i) (hinb0_3 i)).WholeWords (EltTy.packing .f32)

variable [Facts₀]

def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v1) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x4096x64 : Shape := ⟨4, ![1, 16, 4096, 64]⟩
abbrev S1x16x4096x4096 : Shape := ⟨4, ![1, 16, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1x16x4096x4096, .f32⟩
  | .hbm, ⟨4, _⟩ => ⟨S1x16x4096x64, .f32⟩
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S1x16x4096x64_S1x16x4096x64_S1x16x4096x4096_3_3_2_2_01_01_wf : DotDims.WF S1x16x4096x64 S1x16x4096x64 S1x16x4096x4096 [3] [3] [2] [2] [0, 1] [0, 1]
  dot_S1x16x4096x4096_S1x16x4096x64_S1x16x4096x64_3_2_2_3_01_01_wf : DotDims.WF S1x16x4096x4096 S1x16x4096x64 S1x16x4096x64 [3] [2] [2] [3] [0, 1] [0, 1]

variable [Facts₀]

def dot_S1x16x4096x64_S1x16x4096x64_S1x16x4096x4096_3_3_2_2_01_01 : DotDims S1x16x4096x64 S1x16x4096x64 S1x16x4096x4096 where
  lhsContracting := [3]
  rhsContracting := [3]
  lhsNonContracting := [2]
  rhsNonContracting := [2]
  lhsBatch := [0, 1]
  rhsBatch := [0, 1]
  wf := dot_S1x16x4096x64_S1x16x4096x64_S1x16x4096x4096_3_3_2_2_01_01_wf
def dot_S1x16x4096x4096_S1x16x4096x64_S1x16x4096x64_3_2_2_3_01_01 : DotDims S1x16x4096x4096 S1x16x4096x64 S1x16x4096x64 where
  lhsContracting := [3]
  rhsContracting := [2]
  lhsNonContracting := [2]
  rhsNonContracting := [3]
  lhsBatch := [0, 1]
  rhsBatch := [0, 1]
  wf := dot_S1x16x4096x4096_S1x16x4096x64_S1x16x4096x64_3_2_2_3_01_01_wf

class Facts : Prop extends Facts₀ where

variable [Facts]
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibMatmulSumLT.lean ====
/-
  A matrix product with the LEFT operand contracted on its axis 0:  [K, n]ᵀ x [K, w] -> [n, w]  at the ideal values, for
  any contraction length K and whichever record of dimension numbers spells it.  Read at entry (p, q), the sum over the
  record's own contraction index is the sum over k < K of left(k, p) * right(k, q).  A kernel's matrix-unit product into
  a zero accumulator is that sum.  The record enters only through six facts about its index maps (one contracted axis
  of extent K; both operands contracted on their axis 0; the result's axes the left's axis 1 and the right's axis 1).
-/
import Idealize.ShloMosaic.PureOps.Ideal.Laws
import Idealize.ShloMosaic.Lib.Pipeline.Value
import Idealize.ShloMosaic.Lib.ValueIdx

noncomputable section

namespace Cert.LibMatmulSumLT

open Idealize.ShloMosaic Idealize.ShloMosaic.ValueIdx

/-- The index facts of a product whose two operands are both contracted on their axis 0, with contraction length `K`. -/
structure LeftT {n K w : ℕ} (d : DotDims ⟨2, ![K, n]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (q ⟨0, by rw [rank]; exact Nat.one_pos⟩).val
  l1 : ∀ (i : (⟨2, ![n, w]⟩ : Shape).Idx) (q : d.contr.Idx), (d.lhsIdx i q 1).val = (i 0).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![K, n]⟩ ⟨2, ![K, w]⟩ ⟨2, ![n, w]⟩} (hd : LeftT d)
    (l : (⟨2, ![K, n]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 k p) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 k p := funext fun a => Fin.ext (by
    match a with
    | ⟨0, _⟩ => exact (hd.l0 _ _).trans hk
    | ⟨1, _⟩ => exact hd.l1 _ _)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![K, n]⟩ ⟨2, ![K, w]⟩ ⟨2, ![n, w]⟩} (hd : LeftT d) {φ₁ φ₂ : FTy}
    (prec : Option ContractPrecision) (l : FVec Ideal ⟨2, ![K, n]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 k p) * r (ix2 k q) :=
  (Ideal.matmul_constant_zero_apply d prec l r (ix2 p q)).trans (sum_eq hd l r p q)

end Cert.LibMatmulSumLT

end
-- ==== Proof.Algebra.lean ====
/-
  The mathematics of attention without a softmax, for one batch of 16 heads, 4096 positions and 64 features.
  For a head h the result is the matrix product (Q Kᵀ) V; by associativity it is also Q (Kᵀ V), where Kᵀ V is a
  64 x 64 matrix summed over the 4096 positions.  Both arrangements are stated here entry by entry over the extended
  reals, and proved equal when every entry of Q, K and V is a real number (distributing a factor over a sum and
  exchanging two sums are laws of the reals; at infinite entries they fail).
  Two re-indexings of sums used by the packed layout are here too: a sum over 4096 positions is the sum over the
  2048 even ones plus the sum over the 2048 odd ones, and a sum over 128 lanes is the sum over the low 64 plus the sum
  over the high 64.
-/
import Mathlib
import Idealize.ShloMosaic.Lib.ValueIdx

noncomputable section

namespace Cert.Attn

open Idealize.ShloMosaic Idealize.ShloMosaic.ValueIdx

/-- The shape of Q, K, V and the result: batch 1, 16 heads, 4096 positions, 64 features. -/
abbrev QKV : Shape := ⟨4, ![1, 16, 4096, 64]⟩

/-- Position `2 m + p`: the packed layout keeps positions 2m and 2m+1 side by side in packed row m. -/
def row (m : Fin 2048) (p : Fin 2) : Fin 4096 := ⟨2 * m.val + p.val, by omega⟩

/-- Lane `64 p + e` of a packed row: feature e of the even (p = 0) or odd (p = 1) position. -/
def lane (p : Fin 2) (e : Fin 64) : Fin 128 := ⟨64 * p.val + e.val, by omega⟩

theorem row_val (m : Fin 2048) (p : Fin 2) : (row m p).val = 2 * m.val + p.val := rfl
theorem lane_val (p : Fin 2) (e : Fin 64) : (lane p e).val = 64 * p.val + e.val := rfl

/-- Every position is `row (s / 2) (s % 2)`. -/
theorem eq_row (s : Fin 4096) : s = row ⟨s.val / 2, by omega⟩ ⟨s.val % 2, by omega⟩ :=
  Fin.ext (by show s.val = 2 * (s.val / 2) + s.val % 2; omega)

/-- A sum over the 4096 positions, even positions then odd positions. -/
theorem sum_rows {M : Type*} [AddCommMonoid M] (g : Fin 4096 → M) :
    ∑ t, g t = ∑ m : Fin 2048, g (row m 0) + ∑ m : Fin 2048, g (row m 1) := by
  have h : ∑ t : Fin 4096, g t = ∑ x : Fin 2048 × Fin 2, g (row x.1 x.2) := by
    refine (Equiv.sum_comp (finProdFinEquiv (m := 2048) (n := 2)) g).symm.trans ?_
    refine Finset.sum_congr rfl fun x _ => congrArg g (Fin.ext ?_)
    show x.2.val + 2 * x.1.val = 2 * x.1.val + x.2.val
    omega
  rw [h, Fintype.sum_prod_type]
  simp only [Fin.sum_univ_two]
  exact Finset.sum_add_distrib

/-- A sum over the 128 lanes, low half then high half. -/
theorem sum_lanes {M : Type*} [AddCommMonoid M] (f : Fin 128 → M) :
    ∑ i, f i = ∑ e : Fin 64, f (lane 0 e) + ∑ e : Fin 64, f (lane 1 e) := by
  have h : ∑ i : Fin 128, f i = ∑ x : Fin 2 × Fin 64, f (lane x.1 x.2) := by
    refine (Equiv.sum_comp (finProdFinEquiv (m := 2) (n := 64)) f).symm.trans ?_
    refine Finset.sum_congr rfl fun x _ => congrArg f (Fin.ext ?_)
    show x.2.val + 64 * x.1.val = 64 * x.1.val + x.2.val
    omega
  rw [h, Fintype.sum_prod_type]
  simp only [Fin.sum_univ_two]

/-- Entry (e, d) of Kᵀ V for head h: the sum over all positions t of K[h, t, e] · V[h, t, d]. -/
def ktv (K V : QKV.Idx → EReal) (h : Fin 16) (e d : Fin 64) : EReal :=
  ∑ t : Fin 4096, K (ix4 0 h t e) * V (ix4 0 h t d)

/-- Q (Kᵀ V), entry by entry: the arrangement that never forms the 4096 x 4096 matrix. -/
def qKtV (Q K V : QKV.Idx → EReal) : QKV.Idx → EReal := fun i =>
  ∑ e : Fin 64, Q (ix4 0 (i 1) (i 2) e) * ktv K V (i 1) e (i 3)

/-- (Q Kᵀ) V, entry by entry: scores first, then their product with V. -/
def qKtV_scores (Q K V : QKV.Idx → EReal) : QKV.Idx → EReal := fun i =>
  ∑ t : Fin 4096, (∑ e : Fin 64, Q (ix4 0 (i 1) (i 2) e) * K (ix4 0 (i 1) t e)) * V (ix4 0 (i 1) t (i 3))

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the two matrix products, at real entries. -/
theorem qKtV_eq_scores (Q K V : QKV.Idx → EReal) (hQ : ∀ i, ∃ r : ℝ, Q i = r) (hK : ∀ i, ∃ r : ℝ, K i = r)
    (hV : ∀ i, ∃ r : ℝ, V i = r) : qKtV Q K V = qKtV_scores Q K V := by
  choose q hq using hQ
  choose k hk using hK
  choose v hv using hV
  funext i
  simp only [qKtV, qKtV_scores, ktv, hq, hk, hv, ← EReal.coe_mul, ← coe_sum]
  congr 1
  simp only [Finset.mul_sum, Finset.sum_mul]
  rw [Finset.sum_comm]
  refine Finset.sum_congr rfl fun t _ => Finset.sum_congr rfl fun e _ => ?_
  ring

end Cert.Attn

end
-- ==== Proof.Payload.lean ====
/-
  What one grid step of the kernel computes, entry by entry, at the ideal values.
  A step works on one head's packed blocks: x0, x1, x2 are Q, K, V for that head as 2048 packed rows of 128 lanes (packed
  row m holds positions 2m and 2m+1; lanes 0..63 are the even position's features, lanes 64..127 the odd position's).
    * the 128 x 128 product  P[a, b] = sum over packed rows m of x1[m, a] * x2[m, b];
    * its two diagonal 64 x 64 blocks added:  S[e, d] = P[e, d] + P[64 + e, 64 + d]  (the even positions' share of Kᵀ V
      plus the odd positions' share; the off-diagonal blocks, which mix parities, are dropped);
    * the block-diagonal 128 x 128 matrix  D = [[S, 0], [0, S]];
    * the result  x0 · D, whose entry (m, 64 p + d) is the sum over e < 64 of x0[m, 64 p + e] * S[e, d]: the zero blocks
      of D remove the other half of the lanes.
-/
import proofs.«167583_j7954279432295_2_alg».proof.Proof.Gen.KernelIdeal.Skeleton
import proofs.«167583_j7954279432295_2_alg».proof.Proof.LibMatmulSum
import proofs.«167583_j7954279432295_2_alg».proof.Proof.LibMatmulSumLT
import proofs.«167583_j7954279432295_2_alg».proof.Proof.Algebra
import Idealize.ShloMosaic.Lib.Pipeline.Value
import Idealize.ShloMosaic.Lib.ValueIdx
import Idealize.ShloMosaic.PureOps.Ideal.Laws

noncomputable section

namespace Cert.KernelIdeal.Step

open Cert.KernelIdeal Cert.KernelIdeal.Gen Idealize.ShloMosaic Idealize.ShloMosaic.ValueIdx Cert.Attn

/-! ## The two matrix products' index maps -/

/-- The first product contracts both operands on their axis 0 (the 2048 packed rows). -/
theorem kv_dims : Cert.LibMatmulSumLT.LeftT (n := 128) (K := 2048) (w := 128) dot_S2048x128_S2048x128_S128x128_0_0_1_1_n_n where
  rank := rfl
  size := rfl
  l0 := fun i q => dot_S2048x128_S2048x128_S128x128_0_0_1_1_n_n.lhsIdx_val_of_single rfl i q
  l1 := fun i q => by
    unfold DotDims.lhsIdx
    rw [dif_neg (show ¬(1 : Fin S2048x128.rank) ∈ dot_S2048x128_S2048x128_S128x128_0_0_1_1_n_n.lhsBatch by decide),
      dif_pos (show (1 : Fin S2048x128.rank) ∈ dot_S2048x128_S2048x128_S128x128_0_0_1_1_n_n.lhsNonContracting by decide)]
    rfl
  r0 := fun i q => dot_S2048x128_S2048x128_S128x128_0_0_1_1_n_n.rhsIdx_val_of_single rfl i q
  r1 := fun i q => by
    unfold DotDims.rhsIdx
    rw [dif_neg (show ¬(1 : Fin S2048x128.rank) ∈ dot_S2048x128_S2048x128_S128x128_0_0_1_1_n_n.rhsBatch by decide),
      dif_pos (show (1 : Fin S2048x128.rank) ∈ dot_S2048x128_S2048x128_S128x128_0_0_1_1_n_n.rhsNonContracting by decide)]
    rfl

/-- The second product is a plain rows-by-columns product over the 128 lanes. -/
theorem out_dims : Cert.LibMatmulSum.Plain (n := 2048) (K := 128) (w := 128) dot_S2048x128_S128x128_S2048x128_1_0_0_1_n_n where
  rank := rfl
  size := rfl
  l0 := fun i q => by
    unfold DotDims.lhsIdx
    rw [dif_neg (show ¬(0 : Fin S2048x128.rank) ∈ dot_S2048x128_S128x128_S2048x128_1_0_0_1_n_n.lhsBatch by decide),
      dif_pos (show (0 : Fin S2048x128.rank) ∈ dot_S2048x128_S128x128_S2048x128_1_0_0_1_n_n.lhsNonContracting by decide)]
    rfl
  l1 := fun i q => dot_S2048x128_S128x128_S2048x128_1_0_0_1_n_n.lhsIdx_val_of_single rfl i q
  r0 := fun i q => dot_S2048x128_S128x128_S2048x128_1_0_0_1_n_n.rhsIdx_val_of_single rfl i q
  r1 := fun i q => by
    unfold DotDims.rhsIdx
    rw [dif_neg (show ¬(1 : Fin S128x128.rank) ∈ dot_S2048x128_S128x128_S2048x128_1_0_0_1_n_n.rhsBatch by decide),
      dif_pos (show (1 : Fin S128x128.rank) ∈ dot_S2048x128_S128x128_S2048x128_1_0_0_1_n_n.rhsNonContracting by decide)]
    rfl

/-! ## A block without its leading unit axis -/

/-- A [1, 2048, 128] block viewed as [2048, 128]: entry (m, l) is the block's entry (0, m, l). -/
theorem unblock (x : Vec Ideal S1x2048x128 .f32) (h : S1x2048x128.ShapeCasts S2048x128) (m : Fin 2048) (l : Fin 128) :
    shapeCast S2048x128 x h (ix2 m l) = x (ix3 0 m l) :=
  shapeCast_apply x h (ix2 m l) (ix3 0 m l) (by
    rw [Shape.rowMajor_val_three, Shape.rowMajor_val_two]
    show (0 * 2048 + m.val) * 128 + l.val = m.val * 128 + l.val
    omega)

/-! ## The product over the packed rows, and its two diagonal blocks added -/

/-- Entry (a, b) of the 128 x 128 product over the packed rows. -/
def packedKV (x1 x2 : Vec Ideal S1x2048x128 .f32) (a b : Fin 128) : EReal :=
  ∑ m : Fin 2048, x1 (ix3 0 m a) * x2 (ix3 0 m b)

/-- Entry (e, d) of the sum of its two diagonal blocks. -/
def diagSum (x1 x2 : Vec Ideal S1x2048x128 .f32) (e d : Fin 64) : EReal :=
  packedKV x1 x2 (lane 0 e) (lane 0 d) + packedKV x1 x2 (lane 1 e) (lane 1 d)

/-- The body's first product. -/
def prodKV (x1 x2 : Vec Ideal S1x2048x128 .f32) : FVec Ideal S128x128 .f32 :=
  FloatOps.matmul (φ₁ := .f32) (φ₂ := .f32) dot_S2048x128_S2048x128_S128x128_0_0_1_1_n_n (some .fp32)
    (shapeCast S2048x128 x1 Facts₀.shapeCasts_S1x2048x128_S2048x128 : FVec Ideal S2048x128 .f32)
    (shapeCast S2048x128 x2 Facts₀.shapeCasts_S1x2048x128_S2048x128 : FVec Ideal S2048x128 .f32)
    (constant S128x128 .f32 0x00000000#32)

theorem prodKV_apply (x1 x2 : Vec Ideal S1x2048x128 .f32) (a b : Fin 128) :
    prodKV x1 x2 (ix2 a b) = packedKV x1 x2 a b := by
  unfold prodKV packedKV
  refine (Cert.LibMatmulSumLT.matmul_zero_at kv_dims _ _ _ a b).trans ?_
  refine Finset.sum_congr rfl fun m _ => ?_
  rw [unblock x1 _ m a, unblock x2 _ m b]

/-- The body's sum of the two diagonal blocks. -/
def sumKV (x1 x2 : Vec Ideal S1x2048x128 .f32) : FVec Ideal S64x64 .f32 :=
  addf (extractStridedSlice S64x64 ![0, 0] (prodKV x1 x2) Facts₀.slices_S128x128_o0_0_S64x64)
    (extractStridedSlice S64x64 ![64, 64] (prodKV x1 x2) Facts₀.slices_S128x128_o64_64_S64x64)

theorem sumKV_apply (x1 x2 : Vec Ideal S1x2048x128 .f32) (e d : Fin 64) :
    sumKV x1 x2 (ix2 e d) = diagSum x1 x2 e d := by
  have h0 : extractStridedSlice S64x64 ![0, 0] (prodKV x1 x2) Facts₀.slices_S128x128_o0_0_S64x64 (ix2 e d)
      = prodKV x1 x2 (ix2 (lane 0 e) (lane 0 d)) :=
    extractStridedSlice_apply _ _ _ _ _ (fun a => by
      match a with
      | ⟨0, _⟩ => show 64 * 0 + e.val = 0 + e.val; omega
      | ⟨1, _⟩ => show 64 * 0 + d.val = 0 + d.val; omega)
  have h1 : extractStridedSlice S64x64 ![64, 64] (prodKV x1 x2) Facts₀.slices_S128x128_o64_64_S64x64 (ix2 e d)
      = prodKV x1 x2 (ix2 (lane 1 e) (lane 1 d)) :=
    extractStridedSlice_apply _ _ _ _ _ (fun a => by
      match a with
      | ⟨0, _⟩ => show 64 * 1 + e.val = 64 + e.val; omega
      | ⟨1, _⟩ => show 64 * 1 + d.val = 64 + d.val; omega)
  unfold sumKV diagSum
  rw [addf_apply, h0, h1, prodKV_apply, prodKV_apply]

/-! ## Two pieces side by side, and one above the other, read at an entry -/

section Pieces
variable {α : Type}

theorem beside_left (A B : S64x64.Idx → α) (h : Shape.Concatenates [S64x64, S64x64] S64x128 1) (e d : Fin 64) :
    concatenate S64x128 1 [⟨S64x64, A⟩, ⟨S64x64, B⟩] h (ix2 e (lane 0 d)) = A (ix2 e d) :=
  concatenate_pair_apply_left (1 : Fin S64x128.rank) A B h (ix2 e (lane 0 d)) rfl (ix2 e d) (fun b => by
    match b with
    | ⟨0, _⟩ => rfl
    | ⟨1, _⟩ => show d.val = 64 * 0 + d.val; omega)

theorem beside_right (A B : S64x64.Idx → α) (h : Shape.Concatenates [S64x64, S64x64] S64x128 1) (e d : Fin 64) :
    concatenate S64x128 1 [⟨S64x64, A⟩, ⟨S64x64, B⟩] h (ix2 e (lane 1 d)) = B (ix2 e d) :=
  concatenate_pair_apply_right (1 : Fin S64x128.rank) A B h (ix2 e (lane 1 d)) rfl rfl (ix2 e d) (fun b hb => by
    match b with
    | ⟨0, _⟩ => rfl
    | ⟨1, _⟩ => exact absurd rfl hb) (by show d.val + 64 = 64 * 1 + d.val; omega)

theorem above (A B : S64x128.Idx → α) (h : Shape.Concatenates [S64x128, S64x128] S128x128 0) (e : Fin 64) (l : Fin 128) :
    concatenate S128x128 0 [⟨S64x128, A⟩, ⟨S64x128, B⟩] h (ix2 (lane 0 e) l) = A (ix2 e l) :=
  concatenate_pair_apply_left (0 : Fin S128x128.rank) A B h (ix2 (lane 0 e) l) rfl (ix2 e l) (fun b => by
    match b with
    | ⟨0, _⟩ => show e.val = 64 * 0 + e.val; omega
    | ⟨1, _⟩ => rfl)

theorem below (A B : S64x128.Idx → α) (h : Shape.Concatenates [S64x128, S64x128] S128x128 0) (e : Fin 64) (l : Fin 128) :
    concatenate S128x128 0 [⟨S64x128, A⟩, ⟨S64x128, B⟩] h (ix2 (lane 1 e) l) = B (ix2 e l) :=
  concatenate_pair_apply_right (0 : Fin S128x128.rank) A B h (ix2 (lane 1 e) l) rfl rfl (ix2 e l) (fun b hb => by
    match b with
    | ⟨0, _⟩ => exact absurd rfl hb
    | ⟨1, _⟩ => rfl) (by show e.val + 64 = 64 * 1 + e.val; omega)

end Pieces

/-! ## The block-diagonal matrix -/

/-- The body's 64 x 64 block of zeros. -/
def zeros64 : FVec Ideal S64x64 .f32 := broadcast S64x64 (Scalar.ofBits (F := Ideal) .f32 0x00000000#32)

theorem zeros64_apply (j : S64x64.Idx) : zeros64 j = 0 := Ideal.ofBits_zero_f32

/-- The body's block-diagonal matrix [[S, 0], [0, S]]. -/
def diagKV (x1 x2 : Vec Ideal S1x2048x128 .f32) : FVec Ideal S128x128 .f32 :=
  concatenate S128x128 0
    [⟨S64x128, concatenate S64x128 1 [⟨S64x64, sumKV x1 x2⟩, ⟨S64x64, zeros64⟩] Facts₀.concatenates_S64x64_S64x64_S64x128_d1⟩,
     ⟨S64x128, concatenate S64x128 1 [⟨S64x64, zeros64⟩, ⟨S64x64, sumKV x1 x2⟩] Facts₀.concatenates_S64x64_S64x64_S64x128_d1⟩]
    Facts₀.concatenates_S64x128_S64x128_S128x128_d0

theorem diagKV_00 (x1 x2 : Vec Ideal S1x2048x128 .f32) (e d : Fin 64) :
    diagKV x1 x2 (ix2 (lane 0 e) (lane 0 d)) = diagSum x1 x2 e d := by
  unfold diagKV; rw [above, beside_left, sumKV_apply]
theorem diagKV_01 (x1 x2 : Vec Ideal S1x2048x128 .f32) (e d : Fin 64) :
    diagKV x1 x2 (ix2 (lane 0 e) (lane 1 d)) = 0 := by
  unfold diagKV; rw [above, beside_right, zeros64_apply]
theorem diagKV_10 (x1 x2 : Vec Ideal S1x2048x128 .f32) (e d : Fin 64) :
    diagKV x1 x2 (ix2 (lane 1 e) (lane 0 d)) = 0 := by
  unfold diagKV; rw [below, beside_left, zeros64_apply]
theorem diagKV_11 (x1 x2 : Vec Ideal S1x2048x128 .f32) (e d : Fin 64) :
    diagKV x1 x2 (ix2 (lane 1 e) (lane 1 d)) = diagSum x1 x2 e d := by
  unfold diagKV; rw [below, beside_right, sumKV_apply]

/-! ## The step's result -/

/-- The stored value is the second product, x0 · D, with the block's unit axis put back. -/
theorem pay_eq (x0 x1 x2 : Vec Ideal S1x2048x128 .f32) :
    k0_pay1 x0 x1 x2 = shapeCast S1x2048x128
      (FloatOps.matmul (φ₁ := .f32) (φ₂ := .f32) dot_S2048x128_S128x128_S2048x128_1_0_0_1_n_n (some .fp32)
        (shapeCast S2048x128 x0 Facts₀.shapeCasts_S1x2048x128_S2048x128 : FVec Ideal S2048x128 .f32) (diagKV x1 x2)
        (constant S2048x128 .f32 0x00000000#32) : FVec Ideal S2048x128 .f32)
      Facts₀.shapeCasts_S2048x128_S1x2048x128 := rfl

/-- Entry (m, l) of the stored block as a sum over the 128 lanes. -/
theorem pay_lanes (x0 x1 x2 : Vec Ideal S1x2048x128 .f32) (m : Fin 2048) (l : Fin 128) :
    k0_pay1 x0 x1 x2 (ix3 0 m l) = ∑ i : Fin 128, x0 (ix3 0 m i) * diagKV x1 x2 (ix2 i l) := by
  rw [pay_eq]
  refine (shapeCast_apply _ _ (ix3 0 m l) (ix2 m l) (by
    rw [Shape.rowMajor_val_three, Shape.rowMajor_val_two]
    show m.val * 128 + l.val = (0 * 2048 + m.val) * 128 + l.val
    omega)).trans ?_
  refine (Cert.LibMatmulSum.matmul_zero_at out_dims _ _ _ m l).trans ?_
  refine Finset.sum_congr rfl fun i _ => ?_
  rw [unblock x0 _ m i]

/-- Entry (m, 64 p + d): only the lanes of the same half contribute. -/
theorem pay_apply (x0 x1 x2 : Vec Ideal S1x2048x128 .f32) (m : Fin 2048) (p : Fin 2) (d : Fin 64) :
    k0_pay1 x0 x1 x2 (ix3 0 m (lane p d)) = ∑ e : Fin 64, x0 (ix3 0 m (lane p e)) * diagSum x1 x2 e d := by
  rw [pay_lanes, sum_lanes]
  match p with
  | 0 =>
    simp only [diagKV_00, diagKV_10, mul_zero, Finset.sum_const_zero, add_zero]
  | 1 =>
    simp only [diagKV_01, diagKV_11, mul_zero, Finset.sum_const_zero, zero_add]

end Cert.KernelIdeal.Step

end
-- ==== Proof.Formula.lean ====
/-
  From one grid step to the whole result, as pure functions of the three argument arrays.
  The host packs each argument [1, 16, 4096, 64] into [16, 2048, 128] (two reshapes that keep the row-major order, so
  that packed row m of head h holds positions 2m and 2m+1 side by side), the kernel's step for head h turns the three
  packed blocks of that head into the packed result block, and the host unpacks [16, 2048, 128] back into
  [1, 16, 4096, 64].  Composed, entry (0, h, s, d) of the result is  sum over e of Q[h, s, e] * (Kᵀ V)[h][e, d]:
  the arrangement Q (Kᵀ V) of the attention product.
-/
import proofs.«167583_j7954279432295_2_alg».proof.Proof.Payload

noncomputable section

namespace Cert.KernelIdeal.Step

open Cert.KernelIdeal Cert.KernelIdeal.Gen Idealize.ShloMosaic Idealize.ShloMosaic.ValueIdx Cert.Attn

/-! ## Packing and unpacking -/

/-- The host's two reshapes before the kernel: [1, 16, 4096, 64] to [16, 4096, 64] to [16, 2048, 128]. -/
def packed (X : S1x16x4096x64.Idx → EReal) : S16x2048x128.Idx → EReal :=
  shapeCast S16x2048x128 (shapeCast S16x4096x64 X Facts₀.shapeCasts_S1x16x4096x64_S16x4096x64) Facts₀.shapeCasts_S16x4096x64_S16x2048x128

/-- Lane 64 p + e of packed row m of head h is feature e of position 2 m + p of head h. -/
theorem packed_apply (X : S1x16x4096x64.Idx → EReal) (h : Fin 16) (mm : Fin 2048) (p : Fin 2) (e : Fin 64) :
    packed X (ix3 h mm (lane p e)) = X (ix4 0 h (row mm p) e) := by
  unfold packed
  refine (shapeCast_apply _ _ (ix3 h mm (lane p e)) (ix3 h (row mm p) e) (by
    rw [Shape.rowMajor_val_three, Shape.rowMajor_val_three]
    show (h.val * 4096 + (2 * mm.val + p.val)) * 64 + e.val = (h.val * 2048 + mm.val) * 128 + (64 * p.val + e.val)
    omega)).trans ?_
  exact shapeCast_apply _ _ (ix3 h (row mm p) e) (ix4 0 h (row mm p) e) (by
    rw [Shape.rowMajor_val_four, Shape.rowMajor_val_three]
    show ((0 * 16 + h.val) * 4096 + (2 * mm.val + p.val)) * 64 + e.val = (h.val * 4096 + (2 * mm.val + p.val)) * 64 + e.val
    omega)

/-- The host's two reshapes after the kernel: [16, 2048, 128] to [16, 4096, 64] to [1, 16, 4096, 64]. -/
def unpacked (A : S16x2048x128.Idx → EReal) : S1x16x4096x64.Idx → EReal :=
  shapeCast S1x16x4096x64 (shapeCast S16x4096x64 A Facts₀.shapeCasts_S16x2048x128_S16x4096x64) Facts₀.shapeCasts_S16x4096x64_S1x16x4096x64

/-- Feature d of position 2 m + p of head h is lane 64 p + d of packed row m of head h. -/
theorem unpacked_apply (A : S16x2048x128.Idx → EReal) (h : Fin 16) (mm : Fin 2048) (p : Fin 2) (d : Fin 64) :
    unpacked A (ix4 0 h (row mm p) d) = A (ix3 h mm (lane p d)) := by
  unfold unpacked
  refine (shapeCast_apply _ _ (ix4 0 h (row mm p) d) (ix3 h (row mm p) d) (by
    rw [Shape.rowMajor_val_three, Shape.rowMajor_val_four]
    show (h.val * 4096 + (2 * mm.val + p.val)) * 64 + d.val = ((0 * 16 + h.val) * 4096 + (2 * mm.val + p.val)) * 64 + d.val
    omega)).trans ?_
  exact shapeCast_apply _ _ (ix3 h (row mm p) d) (ix3 h mm (lane p d)) (by
    rw [Shape.rowMajor_val_three, Shape.rowMajor_val_three]
    show (h.val * 2048 + mm.val) * 128 + (64 * p.val + d.val) = (h.val * 4096 + (2 * mm.val + p.val)) * 64 + d.val
    omega)

/-! ## The packed result as one function of the packed arguments -/

/-- Head h's block of a packed array, with the block's leading unit axis. -/
def headBlk (A : S16x2048x128.Idx → EReal) (h : Fin 16) : Vec Ideal S1x2048x128 .f32 := fun y => A (ix3 h (y 1) (y 2))

/-- The packed result: entry (h, m, l) is entry (0, m, l) of the step's result on head h's three blocks. -/
def packedResult (A1 A3 A5 : S16x2048x128.Idx → EReal) : S16x2048x128.Idx → EReal := fun i =>
  k0_pay1 (headBlk A1 (i 0)) (headBlk A3 (i 0)) (headBlk A5 (i 0)) (ix3 0 (i 1) (i 2))

/-- A step on blocks that are head h's blocks, read at a block entry, is the packed result at the array entry under it. -/
theorem step_eq_packedResult (A1 A3 A5 : S16x2048x128.Idx → EReal) (x0 x1 x2 : Vec Ideal S1x2048x128 .f32) (h : Fin 16)
    (h0 : ∀ y, x0 y = A1 (ix3 h (y 1) (y 2))) (h1 : ∀ y, x1 y = A3 (ix3 h (y 1) (y 2))) (h2 : ∀ y, x2 y = A5 (ix3 h (y 1) (y 2)))
    (j : S1x2048x128.Idx) (i : S16x2048x128.Idx) (hi0 : (i 0).val = h.val) (hi1 : (i 1).val = (j 1).val)
    (hi2 : (i 2).val = (j 2).val) : k0_pay1 x0 x1 x2 j = packedResult A1 A3 A5 i := by
  obtain rfl : h = i 0 := Fin.ext hi0.symm
  have e0 : x0 = headBlk A1 (i 0) := funext h0
  have e1 : x1 = headBlk A3 (i 0) := funext h1
  have e2 : x2 = headBlk A5 (i 0) := funext h2
  have ej : j = ix3 0 (i 1) (i 2) := funext fun a => Fin.ext (by
    match a with
    | ⟨0, _⟩ => have hj : (j 0).val < 1 := (j 0).isLt; show (j 0).val = 0; omega
    | ⟨1, _⟩ => exact hi1.symm
    | ⟨2, _⟩ => exact hi2.symm)
  rw [e0, e1, e2, ej]
  rfl

/-! ## The whole result is Q (Kᵀ V) -/

theorem kernel_formula (Q K V : S1x16x4096x64.Idx → EReal) :
    unpacked (packedResult (packed Q) (packed K) (packed V)) = qKtV Q K V := by
  funext i
  obtain ⟨h, s, d, rfl⟩ : ∃ (h : Fin 16) (s : Fin 4096) (d : Fin 64), i = ix4 0 h s d :=
    ⟨i 1, i 2, i 3, (eq_ix4 i).trans (congrArg (fun a => ix4 a (i 1) (i 2) (i 3))
      (Fin.ext (by have h0 : (i 0).val < 1 := (i 0).isLt; show (i 0).val = 0; omega)))⟩
  obtain ⟨mm, p, rfl⟩ : ∃ (mm : Fin 2048) (p : Fin 2), s = row mm p := ⟨_, _, eq_row s⟩
  rw [unpacked_apply]
  show k0_pay1 (headBlk (packed Q) h) (headBlk (packed K) h) (headBlk (packed V) h) (ix3 0 mm (lane p d))
    = ∑ e : Fin 64, Q (ix4 0 h (row mm p) e) * ktv K V h e d
  rw [pay_apply]
  refine Finset.sum_congr rfl fun e _ => ?_
  congr 1
  · exact packed_apply Q h mm p e
  · unfold diagSum packedKV ktv
    rw [sum_rows]
    congr 1 <;> refine Finset.sum_congr rfl fun m' _ => ?_
    · congr 1
      · exact packed_apply K h m' 0 e
      · exact packed_apply V h m' 0 d
    · congr 1
      · exact packed_apply K h m' 1 e
      · exact packed_apply V h m' 1 d

end Cert.KernelIdeal.Step

end
-- ==== Proof.KernelRun.lean ====
/-
  The kernel program's run, with its result named.
  The region's arrays are the packed arguments (the host reshapes before it); each grid step t works on head t: its
  three input blocks are head t's blocks of the packed arguments, and the block it writes back is head t's block of
  the packed result; the 16 blocks tile the output array, so after the region the array is the packed result; the host
  reshapes after the region unpack it.  Hence the program ends with its result at Q (Kᵀ V) of its three arguments.
-/
import proofs.«167583_j7954279432295_2_alg».proof.Proof.Gen.KernelIdeal.Frame
import proofs.«167583_j7954279432295_2_alg».proof.Proof.Formula
import Idealize.ShloMosaic.Lib.Pipeline.Value
import Idealize.ShloMosaic.Lib.StableHlo.Run

set_option maxRecDepth 16384

noncomputable section

namespace Cert.KernelIdeal.RunValue

open Cert.KernelIdeal Cert.KernelIdeal.Gen Cert.KernelIdeal.Step Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## The arrays the region finds -/

theorem V_v1 (c : Dev nD) : (V m c main_v1 : S16x2048x128.Idx → EReal) = packed (m ((c : Thread nD τ).loc main_arg0)) := by
  show StableHlo.after hostOps0 (fun b => m (c, b)) (Proc.devRef .tc main_v1) = _
  after_results
  rfl

theorem V_v3 (c : Dev nD) : (V m c main_v3 : S16x2048x128.Idx → EReal) = packed (m ((c : Thread nD τ).loc main_arg1)) := by
  show StableHlo.after hostOps0 (fun b => m (c, b)) (Proc.devRef .tc main_v3) = _
  after_results
  rfl

theorem V_v5 (c : Dev nD) : (V m c main_v5 : S16x2048x128.Idx → EReal) = packed (m ((c : Thread nD τ).loc main_arg2)) := by
  show StableHlo.after hostOps0 (fun b => m (c, b)) (Proc.devRef .tc main_v5) = _
  after_results
  rfl

/-! ## Grid step t works on head t -/

theorem zero_offsets : (![0, 0, 0] : Fin 3 → Nat) = fun _ => 0 := funext fun a => by fin_cases a <;> rfl

/-- Every window's block index at step t is (t, 0, 0), and t is a head. -/
theorem block_indices : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) < 16 :=
  (by decide +kernel : ∀ t : Fin grid0.N, _)

/-- Every head is some step's. -/
theorem head_step : ∀ q : Fin 16, ∃ t : Fin cfg0.N, win0_3.index t = ![q.val, 0, 0] :=
  (by decide +kernel : ∀ q : Fin 16, ∃ t : Fin grid0.N, win0_3.index t = ![q.val, 0, 0])

/-- Whatever three arrays the input windows are read from: the step at t, run on their blocks at t, leaves in the output
    window's buffer the block at t of the packed result of those arrays. -/
theorem step_block (A1 A3 A5 : S16x2048x128.Idx → EReal) (t : Fin cfg0.N) :
    (cfg0.win 3).cut (grid0.coords t)
        (out0_3 (((cfg0.win 0).blk t).view.read (Elt Ideal) A1) (((cfg0.win 1).blk t).view.read (Elt Ideal) A3)
          (((cfg0.win 2).blk t).view.read (Elt Ideal) A5))
      = ((cfg0.win 3).blk t).view.read (Elt Ideal) (packedResult A1 A3 A5) := by
  unfold out0_3
  rw [View.canon_unit_zero zero_offsets]
  simp only [View.ld_unit_zero (S := S1x2048x128) zero_offsets]
  obtain ⟨a0, a1, a2, b0, b1, b2, c0, c1, c2, d1, d2, d0⟩ := block_indices t
  funext j
  show k0_pay1 (((cfg0.win 0).blk t).view.read (Elt Ideal) A1) (((cfg0.win 1).blk t).view.read (Elt Ideal) A3)
      (((cfg0.win 2).blk t).view.read (Elt Ideal) A5) j
    = packedResult A1 A3 A5 (((cfg0.win 3).blk t).view.emb j)
  have ei : ((cfg0.win 3).blk t).view.emb j = ix3 ⟨win0_3.index t (0 : Fin 3), d0⟩ (j 1) (j 2) := by
    funext a
    apply Fin.ext
    match a with
    | ⟨0, _⟩ => show win0_3.index t (0 : Fin 3) * 1 + 1 * (j 0).val = win0_3.index t (0 : Fin 3); have hj : (j 0).val < 1 := (j 0).isLt; omega
    | ⟨1, _⟩ => show win0_3.index t (1 : Fin 3) * 2048 + 1 * (j 1).val = (j 1).val; omega
    | ⟨2, _⟩ => show win0_3.index t (2 : Fin 3) * 128 + 1 * (j 2).val = (j 2).val; omega
  rw [ei]
  refine step_eq_packedResult A1 A3 A5 _ _ _ ⟨win0_3.index t (0 : Fin 3), d0⟩ (fun y => ?_) (fun y => ?_) (fun y => ?_) j _ rfl rfl rfl
  · show A1 (((cfg0.win 0).blk t).view.emb y) = A1 (ix3 ⟨win0_3.index t (0 : Fin 3), d0⟩ (y 1) (y 2))
    refine congrArg A1 ?_
    funext a
    apply Fin.ext
    match a with
    | ⟨0, _⟩ => show win0_0.index t (0 : Fin 3) * 1 + 1 * (y 0).val = win0_3.index t (0 : Fin 3); have hy : (y 0).val < 1 := (y 0).isLt; omega
    | ⟨1, _⟩ => show win0_0.index t (1 : Fin 3) * 2048 + 1 * (y 1).val = (y 1).val; omega
    | ⟨2, _⟩ => show win0_0.index t (2 : Fin 3) * 128 + 1 * (y 2).val = (y 2).val; omega
  · show A3 (((cfg0.win 1).blk t).view.emb y) = A3 (ix3 ⟨win0_3.index t (0 : Fin 3), d0⟩ (y 1) (y 2))
    refine congrArg A3 ?_
    funext a
    apply Fin.ext
    match a with
    | ⟨0, _⟩ => show win0_1.index t (0 : Fin 3) * 1 + 1 * (y 0).val = win0_3.index t (0 : Fin 3); have hy : (y 0).val < 1 := (y 0).isLt; omega
    | ⟨1, _⟩ => show win0_1.index t (1 : Fin 3) * 2048 + 1 * (y 1).val = (y 1).val; omega
    | ⟨2, _⟩ => show win0_1.index t (2 : Fin 3) * 128 + 1 * (y 2).val = (y 2).val; omega
  · show A5 (((cfg0.win 2).blk t).view.emb y) = A5 (ix3 ⟨win0_3.index t (0 : Fin 3), d0⟩ (y 1) (y 2))
    refine congrArg A5 ?_
    funext a
    apply Fin.ext
    match a with
    | ⟨0, _⟩ => show win0_2.index t (0 : Fin 3) * 1 + 1 * (y 0).val = win0_3.index t (0 : Fin 3); have hy : (y 0).val < 1 := (y 0).isLt; omega
    | ⟨1, _⟩ => show win0_2.index t (1 : Fin 3) * 2048 + 1 * (y 1).val = (y 1).val; omega
    | ⟨2, _⟩ => show win0_2.index t (2 : Fin 3) * 128 + 1 * (y 2).val = (y 2).val; omega

/-- What step t writes back is its block of the packed result of the arrays the region finds. -/
theorem flushed3_eq (c : Dev nD) (t : Fin cfg0.N) :
    (dats m 0 c).flushed 3 t = ((cfg0.win 3).blk t).view.read (Elt Ideal)
      (packedResult (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold iblk
  generalize V m c (Pipeline.arrRef spec0 0) = A1
  generalize V m c (Pipeline.arrRef spec0 1) = A3
  generalize V m c (Pipeline.arrRef spec0 2) = A5
  exact step_block A1 A3 A5 t

/-! ## The 16 blocks tile the output array -/

theorem mem_blk3 (t : Fin cfg0.N) (i : S16x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v6).slice (win0_3.rect t)).set ↔ _
  rw [View.set_slice_whole, Rect.mem_set_unit]
  exact Iff.rfl

theorem cover3 (i : S16x2048x128.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 128 := (i 2).isLt
  obtain ⟨t, ht⟩ := head_step ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- The output array after the region is the packed result of the arrays the region finds. -/
theorem final3 (c : Dev nD) :
    (dats m 0 c).arrAt 3 cfg0.N = packedResult (V m c (Pipeline.arrRef spec0 0)) (V m c (Pipeline.arrRef spec0 1))
      (V m c (Pipeline.arrRef spec0 2)) :=
  (dats m 0 c).arrAt_eq_of_cover 3 _ (fun t _ => flushed3_eq m c t) cover3

/-! ## The host reshapes after the region -/

/-- The program's result buffer after the last host operation is the region's output array, unpacked. -/
theorem tail_v8 (c : Dev nD) :
    (Pipeline.afterTail₀ cfgs (dats m) 0 (V0 m) [hostOps1] c main_v8 : S1x16x4096x64.Idx → EReal)
      = unpacked ((dats m 0 c).arrAt 3 cfg0.N) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6)
      = (dats m 0 c).arrAt 3 cfg0.N := Pipeline.withArrays_arr spec0 launch0.win.arr_inj c _ _ 3
  rw [e]
  rfl

/-- The result is Q (Kᵀ V) of the three arguments as launched. -/
theorem result_eq (c : Dev nD) :
    (Pipeline.afterTail₀ cfgs (dats m) 0 (V0 m) [hostOps1] c main_v8 : S1x16x4096x64.Idx → EReal)
      = qKtV (m ((c.tc : Thread nD τ).loc main_arg0)) (m ((c.tc : Thread nD τ).loc main_arg1)) (m ((c.tc : Thread nD τ).loc main_arg2)) := by
  rw [tail_v8, final3]
  show unpacked (packedResult (V m c main_v1) (V m c main_v3) (V m c main_v5)) = _
  rw [V_v1, V_v3, V_v5]
  exact kernel_formula _ _ _

/-! ## The run -/

/-- Every weakly fair execution of the kernel program terminates with its result at Q (Kᵀ V) of the arguments and the
    arguments unchanged. -/
theorem run : θ_run defs (onTc (τ := τ) (main (F := Ideal))) ⟨m, fun _ => 0, ρ⟩ fun r => ∀ c : Dev nD,
      r.2.mem ((c.tc : Thread nD τ).loc main_v8)
        = qKtV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference, entry by entry: two batched matrix products, scores = Q Kᵀ over the 64 features and then
  scores · V over the 4096 positions.  Entry (0, h, s, d) is the sum over positions t of
  (sum over features e of Q[h, s, e] * K[h, t, e]) * V[h, t, d]: the arrangement (Q Kᵀ) V.
-/
import proofs.«167583_j7954279432295_2_alg».proof.Proof.Gen.ReferenceIdeal.Read
import proofs.«167583_j7954279432295_2_alg».proof.Proof.Algebra

noncomputable section

namespace Cert.ReferenceIdeal.RefValue

open Cert.ReferenceIdeal Cert.ReferenceIdeal.Read Idealize.ShloMosaic Idealize.ShloMosaic.ValueIdx Cert.Attn

theorem ref_eq_scores (x0 x1 x2 : (⟨S1x16x4096x64, .f32⟩ : BufTy).Contents (Elt Ideal)) :
    val_main_v1 (F := Ideal) x0 x1 x2 = qKtV_scores x0 x1 x2 := by
  funext i
  have h0 : (i 0).val = 0 := by have h : (i 0).val < 1 := (i 0).isLt; omega
  rw [val_main_v1_apply]
  unfold qKtV_scores
  refine Finset.sum_congr rfl fun t _ => ?_
  rw [val_main_v0_apply]
  have eq : ∀ k : Fin 64, lidx_main_v0 (lidx_main_v1 i t) k = ix4 0 (i 1) (i 2) k := fun k => funext fun a => Fin.ext (by
    match a with
    | ⟨0, _⟩ => exact h0
    | ⟨1, _⟩ => rfl
    | ⟨2, _⟩ => rfl
    | ⟨3, _⟩ => rfl)
  have ek : ∀ k : Fin 64, ridx_main_v0 (lidx_main_v1 i t) k = ix4 0 (i 1) t k := fun k => funext fun a => Fin.ext (by
    match a with
    | ⟨0, _⟩ => exact h0
    | ⟨1, _⟩ => rfl
    | ⟨2, _⟩ => rfl
    | ⟨3, _⟩ => rfl)
  have ev : ridx_main_v1 i t = ix4 0 (i 1) t (i 3) := funext fun a => Fin.ext (by
    match a with
    | ⟨0, _⟩ => exact h0
    | ⟨1, _⟩ => rfl
    | ⟨2, _⟩ => rfl
    | ⟨3, _⟩ => rfl)
  simp only [eq, ek, ev]
  rfl

end Cert.ReferenceIdeal.RefValue

end
-- ==== Proof.Finite.lean ====
/-
  The precondition, read: the three tests |x| < +infinity, each taken over every entry of one argument and joined by
  "and", say that every entry of Q, K and V is a real number (neither infinity, and not the junk value a
  not-a-number pattern denotes, which is the bottom element and fails the test too).
-/
import proofs.«167583_j7954279432295_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Cert.Pre_finite_inputs

instance : Subsingleton S_.Idx := ⟨fun a b => funext fun d => d.elim0⟩

/-- The pattern of +infinity. -/
theorem inf_bits : Ideal.ofBits .f32 0x7F800000#32 = ⊤ := by simp [Ideal.ofBits, Ideal.ieee]

/-- An extended real whose absolute value is below +infinity is a real. -/
theorem real_of_abs_lt_top (x : EReal) (h : max x (-x) < ⊤) : ∃ r : ℝ, x = r := by
  induction x using EReal.rec with
  | bot => simp at h
  | coe r => exact ⟨r, rfl⟩
  | top => simp at h

/-- One entry's test. -/
theorem real_of_test (x : FVec Ideal S1x16x4096x64 .f32)
    (bc : S_.BroadcastsInDim S1x16x4096x64 (![] : Fin 0 → Fin S1x16x4096x64.rank)) (i : S1x16x4096x64.Idx)
    (h : cmpf .olt (Host.absf x) (broadcastInDim S1x16x4096x64 ![] bc (constant (F := Ideal) S_ .f32 0x7F800000#32)) i = 1#1) :
    ∃ r : ℝ, x i = r := by
  have h' : BitVec.ofBool (decide (max (x i) (-(x i)) < Ideal.ofBits .f32 0x7F800000#32)) = 1#1 := h
  rw [inf_bits] at h'
  have hlt : max (x i) (-(x i)) < ⊤ := by
    by_contra hn
    rw [decide_eq_false hn] at h'
    exact absurd h' (by decide)
  exact real_of_abs_lt_top _ hlt

/-- The precondition gives real entries throughout. -/
theorem real_of_pre (x0 x1 x2 : FVec Ideal S1x16x4096x64 .f32) (h : fn (F := Ideal) x0 x1 x2 = fun _ => 1#1) :
    (∀ i, ∃ r : ℝ, x0 i = r) ∧ (∀ i, ∃ r : ℝ, x1 i = r) ∧ (∀ i, ∃ r : ℝ, x2 i = r) := by
  have h1 := congrFun h ValueIdx.ix0
  dsimp only [fn] at h1
  obtain ⟨h12, h3⟩ := IntOp.andi_eq_one.mp h1
  obtain ⟨h1', h2⟩ := IntOp.andi_eq_one.mp h12
  exact ⟨fun i => real_of_test x0 _ i (Host.reduce_andi_all _ _ _ _ _ h1' i),
    fun i => real_of_test x1 _ i (Host.reduce_andi_all _ _ _ _ _ h2 i),
    fun i => real_of_test x2 _ i (Host.reduce_andi_all _ _ _ _ _ h3 i)⟩

end Cert.Pre_finite_inputs.Finite

end
-- ==== Proof.lean ====
/-
  Attention without a softmax: (Q Kᵀ) V against Q (Kᵀ V).

  The reference forms the 4096 x 4096 scores Q Kᵀ of each of the 16 heads and multiplies them by V.  The kernel never
  forms the scores: per head it sums Kᵀ V, a 64 x 64 matrix, over the 4096 positions and multiplies Q by it.  It also
  works on a packed layout, two consecutive positions side by side in one row of 128 lanes; the product over packed
  rows then has the even positions' share of Kᵀ V in its upper-left 64 x 64 block and the odd positions' share in its
  lower-right block, and multiplying the packed Q by the block-diagonal matrix [[Kᵀ V, 0], [0, Kᵀ V]] gives the packed
  result.  At the ideal values both programs therefore end with, at entry (0, h, s, d),

      sum over t < 4096 and e < 64 of  Q[h, s, e] * K[h, t, e] * V[h, t, d],

  grouped one way by the reference and the other way by the kernel.  The two groupings agree by distributivity and the
  exchange of two finite sums; these are laws of the real numbers, and they are applied here because the precondition
  makes every entry of Q, K and V a real number (on the extended reals, with infinite entries, the laws fail).

  The three frames: the two kernel programs' are the generated ones; the reference, which launches no kernel, runs as
  its list of host operations.  The kernel's idealization rewrote nothing, so there is nothing to preserve.
-/
import proofs.«167583_j7954279432295_2_alg».proof.Defs
import proofs.«167583_j7954279432295_2_alg».proof.Proof.Gen.Kernel
import proofs.«167583_j7954279432295_2_alg».proof.Proof.Gen.Kernel.Frame
import proofs.«167583_j7954279432295_2_alg».proof.Proof.Gen.KernelIdeal
import proofs.«167583_j7954279432295_2_alg».proof.Proof.Gen.KernelIdeal.Frame
import proofs.«167583_j7954279432295_2_alg».proof.Proof.Gen.ReferenceIdeal
import proofs.«167583_j7954279432295_2_alg».proof.Proof.Gen.Pre_finite_inputs
import proofs.«167583_j7954279432295_2_alg».proof.Proof.Gen.ReferenceIdeal.Run
import proofs.«167583_j7954279432295_2_alg».proof.Proof.Gen.ReferenceIdeal.Read
import proofs.«167583_j7954279432295_2_alg».proof.Proof.KernelRun
import proofs.«167583_j7954279432295_2_alg».proof.Proof.RefValue
import proofs.«167583_j7954279432295_2_alg».proof.Proof.Finite
import Idealize.ShloMosaic.Adequacy
import Idealize.ShloMosaic.Init

noncomputable section

namespace Cert.Proof

open Idealize.ShloMosaic Idealize.SL.Sem Cert.Attn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the same array: the kernel's at Q (Kᵀ V), the reference's at (Q Kᵀ) V, of arguments that
    agree and whose entries are real. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨?_, (h c).2⟩)
    (Cert.ReferenceIdeal.Value.run (F := Ideal) m' ρ')
  obtain ⟨hq, hk, hv⟩ := Cert.Pre_finite_inputs.Finite.real_of_pre _ _ _ (hpre c)
  rw [(h c).1, Cert.ReferenceIdeal.Read.val_main_v1_eq, Cert.ReferenceIdeal.RefValue.ref_eq_scores,
    (hagree c).1, (hagree c).2.1, (hagree c).2.2]
  exact (qKtV_eq_scores _ _ _ hq hk hv).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
